-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_v0) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S640000x128 : Shape := ⟨2, ![640000, 128]⟩
abbrev S128x128 : Shape := ⟨2, ![128, 128]⟩
abbrev S640000x2 : Shape := ⟨2, ![640000, 2]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S640000x128 : S_.BroadcastsInDim S640000x128 (![] : Fin 0 → Fin S640000x128.rank)
  reducesTo_S640000x128_S_d0_1 : S640000x128.ReducesTo [0, 1] S_
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S10000x128 .f32) (main_arg1 : FVec F S640000x128 .f32) (main_arg2 : FVec F S128x128 .f32) (main_arg3 : IVec S640000x2 32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S640000x128 .f32 := Host.absf main_arg1
  let main_cst_0 : FVec F S_ .f32 := constant S_ .f32 0x7F800000#32
  let main_v5 : FVec F S640000x128 .f32 := broadcastInDim S640000x128 ![] bcast_S_S640000x128 main_cst_0
  let main_v6 : IVec S640000x128 1 := cmpf .olt main_v4 main_v5
  let main_c_1 : IVec S_ 1 := constantI S_ 1 1#1
  let main_v7 : IVec S_ 1 := (fun x v => Host.reduce IntOp.andi x v reducesTo_S640000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S10000x128 : Shape := ⟨2, ![10000, 128]⟩
abbrev S640000x128 : Shape := ⟨2, ![640000, 128]⟩
abbrev S128x128 : Shape := ⟨2, ![128, 128]⟩
abbrev S640000x2 : Shape := ⟨2, ![640000, 2]⟩
abbrev S8000x128 : Shape := ⟨2, ![8000, 128]⟩
abbrev S640000x1 : Shape := ⟨2, ![640000, 1]⟩
abbrev S640000 : Shape := ⟨1, ![640000]⟩
abbrev S_ : Shape := ⟨0, ![]⟩
abbrev S1000x128 : Shape := ⟨2, ![1000, 128]⟩

abbrev nBuf : Space → Nat
  | .hbm => 12
  | .vmem => 11
  | .smem => 0
  | _ => 0

abbrev bufTy : (tb : Table) → Fin (tcTables nBuf tb) → BufTy
  | .hbm, ⟨0, _⟩ => ⟨S10000x128, .f32⟩
  | .hbm, ⟨1, _⟩ => ⟨S640000x128, .f32⟩
  | .hbm, ⟨2, _⟩ => ⟨S128x128, .f32⟩
  | .hbm, ⟨3, _⟩ => ⟨S640000x2, .i32⟩
  | .hbm, ⟨4, _⟩ => ⟨S640000x128, .f32⟩
  | .hbm, ⟨5, _⟩ => ⟨S640000x1, .i32⟩
  | .hbm, ⟨6, _⟩ => ⟨S640000, .i32⟩
  | .hbm, ⟨7, _⟩ => ⟨S_, .f32⟩
  | .hbm, ⟨8, _⟩ => ⟨S10000x128, .f32⟩
  | .hbm, ⟨9, _⟩ => ⟨S640000x1, .i32⟩
  | .hbm, ⟨10, _⟩ => ⟨S10000x128, .f32⟩
  | .hbm, ⟨11, _⟩ => ⟨S10000x128, .f32⟩
  | .local _ .vmem, ⟨0, _⟩ => ⟨S8000x128, .f32⟩
  | .local _ .vmem, ⟨1, _⟩ => ⟨S8000x128, .f32⟩
  | .local _ .vmem, ⟨2, _⟩ => ⟨S128x128, .f32⟩
  | .local _ .vmem, ⟨3, _⟩ => ⟨S8000x128, .f32⟩
  | .local _ .vmem, ⟨4, _⟩ => ⟨S8000x128, .f32⟩
  | .local _ .vmem, ⟨5, _⟩ => ⟨S1000x128, .f32⟩
  | .local _ .vmem, ⟨6, _⟩ => ⟨S1000x128, .f32⟩
  | .local _ .vmem, ⟨7, _⟩ => ⟨S1000x128, .f32⟩
  | .local _ .vmem, ⟨8, _⟩ => ⟨S1000x128, .f32⟩
  | .local _ .vmem, ⟨9, _⟩ => ⟨S1000x128, .f32⟩
  | .local _ .vmem, ⟨10, _⟩ => ⟨S1000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S8000x128_S8000x128_0_0 : ∀ a, (![0, 0] : Fin 2 → Nat) a + S8000x128.size a ≤ S8000x128.size a
  h_S8000x128 : 0 < S8000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  slices_S640000x2_S640000x1_0_0 : S640000x2.Slices ![0, 0] S640000x1
  shapeCasts_S640000x1_S640000 : S640000x1.ShapeCasts S640000
  bcast_S_S10000x128 : S_.BroadcastsInDim S10000x128 (![] : Fin 0 → Fin S10000x128.rank)
  bcast_S640000_S640000x1_0 : S640000.BroadcastsInDim S640000x1 (![0] : Fin 1 → Fin S640000x1.rank)
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  dot_S8000x128_S128x128_S8000x128_1_0_0_1_n_n_wf : DotDims.WF S8000x128 S128x128 S8000x128 [1] [0] [0] [1] [] []
  scatter_S10000x128_S640000x1_S640000x128_1_0_0_1_wf : ScatterDims.WF S10000x128 S640000x1 S640000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S640000x128.size a
  hwx0_0 : ∀ i : grid0.Coords, EltTy.bits .f32 = 32 ∨ (Rect.block (s := S640000x128) S8000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x128.size a ≤ S640000x128.size a
  hwx0_2 : ∀ i : grid0.Coords, EltTy.bits .f32 = 32 ∨ (Rect.block (s := S640000x128) S8000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x128.size a ≤ S10000x128.size a
  hwx1_0 : ∀ i : grid1.Coords, EltTy.bits .f32 = 32 ∨ (Rect.block (s := S10000x128) S1000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x128.size a ≤ S10000x128.size a
  hwx1_1 : ∀ i : grid1.Coords, EltTy.bits .f32 = 32 ∨ (Rect.block (s := S10000x128) S1000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x128.size a ≤ S10000x128.size a
  hwx1_2 : ∀ i : grid1.Coords, EltTy.bits .f32 = 32 ∨ (Rect.block (s := S10000x128) S1000x128.size (cc1_transform_2 i) (hinb1_2 i)).WholeWords (EltTy.packing .f32)

variable [Facts₀]

def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf

abbrev win0_0 : Pipeline.Window sig grid0 :=
  Pipeline.Window.ofSpec (Memref.whole main_arg1) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S1000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S1000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S10000x128 : Shape := ⟨2, ![10000, 128]⟩
abbrev S640000x128 : Shape := ⟨2, ![640000, 128]⟩
abbrev S128x128 : Shape := ⟨2, ![128, 128]⟩
abbrev S640000x2 : Shape := ⟨2, ![640000, 2]⟩
abbrev S640000x1 : Shape := ⟨2, ![640000, 1]⟩
abbrev S640000 : Shape := ⟨1, ![640000]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S640000x128, .f32⟩
  | .hbm, ⟨2, _⟩ => ⟨S128x128, .f32⟩
  | .hbm, ⟨3, _⟩ => ⟨S640000x2, .i32⟩
  | .hbm, ⟨4, _⟩ => ⟨S640000x128, .f32⟩
  | .hbm, ⟨5, _⟩ => ⟨S640000x1, .i32⟩
  | .hbm, ⟨6, _⟩ => ⟨S640000, .i32⟩
  | .hbm, ⟨7, _⟩ => ⟨S_, .f32⟩
  | .hbm, ⟨8, _⟩ => ⟨S10000x128, .f32⟩
  | .hbm, ⟨9, _⟩ => ⟨S640000x1, .i32⟩
  | .hbm, ⟨10, _⟩ => ⟨S10000x128, .f32⟩
  | .hbm, ⟨11, _⟩ => ⟨S10000x128, .f32⟩
  | .hbm, ⟨12, _⟩ => ⟨S_, .f32⟩
  | .hbm, ⟨13, _⟩ => ⟨S10000x128, .f32⟩
  | .hbm, ⟨14, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call0_cst : Ref sig .tc := ⟨.hbm, 12, rfl⟩
abbrev main_call0_v0 : Ref sig .tc := ⟨.hbm, 13, rfl⟩
abbrev main_v7 : Ref sig .tc := ⟨.hbm, 14, rfl⟩

abbrev nD : Nat := 1
abbrev τ : Topo := Topo.v7x

variable {F : FTy → Type} [FloatOps F]

class Facts₀ : Prop where
  slices_S640000x2_S640000x1_0_0 : S640000x2.Slices ![0, 0] S640000x1
  shapeCasts_S640000x1_S640000 : S640000x1.ShapeCasts S640000
  bcast_S_S10000x128 : S_.BroadcastsInDim S10000x128 (![] : Fin 0 → Fin S10000x128.rank)
  bcast_S640000_S640000x1_0 : S640000.BroadcastsInDim S640000x1 (![0] : Fin 1 → Fin S640000x1.rank)
  dot_S640000x128_S128x128_S640000x128_1_1_0_0_n_n_wf : DotDims.WF S640000x128 S128x128 S640000x128 [1] [1] [0] [0] [] []
  scatter_S10000x128_S640000x1_S640000x128_1_0_0_1_wf : ScatterDims.WF S10000x128 S640000x1 S640000x128 [1] [0] [0] 1

variable [Facts₀]

def dot_S640000x128_S128x128_S640000x128_1_1_0_0_n_n : DotDims S640000x128 S128x128 S640000x128 where
  lhsContracting := [1]
  rhsContracting := [1]
  lhsNonContracting := [0]
  rhsNonContracting := [0]
  lhsBatch := []
  rhsBatch := []
  wf := dot_S640000x128_S128x128_S640000x128_1_1_0_0_n_n_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf

class Facts : Prop extends Facts₀ where

variable [Facts]
-- ==== Proof.RunOutputs.lean ====
/-
  The idealized kernel's whole run with its two result arrays NAMED. The program is two grid launches with a
  stretch of host operations between them; the buffer contents at each boundary are a fold from the launch
  memory: after the first launch (`W1`), after the host stretch (`W2`), after the second launch (`W3`). Every
  weakly fair execution terminates and the final memory holds, at every buffer that outlives the launches, the
  last boundary's contents; read here at the two results and at the four arguments.
-/
import proofs.«120976_j63170378989709_1_alg».proof.Proof.Gen.KernelIdeal.Frame

set_option maxRecDepth 16384

noncomputable section

namespace Cert.KernelIdeal.EdgeConv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with every buffer of interest read at the last boundary's contents `W3`. -/
theorem run_boundary : θ_run defs (onTc (τ := τ) (main (F := F))) ⟨m, fun _ => 0, ρ⟩ (fun r => ∀ c : Dev nD,
      r.2.mem ((c.tc : Thread nD τ).loc main_v6) = W3 m ρ c (Proc.devRef .tc main_v6)
      ∧ r.2.mem ((c.tc : Thread nD τ).loc main_v0) = W3 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v6 (by decide)),
       h c _ (mem_uc main_v0 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c)⟩)

/-- The second launch's result array at the last boundary is what that launch's write-backs leave. -/
theorem W3_v6 (c : Dev nD) : W3 m ρ c (Proc.devRef .tc main_v6) = (dat1 (V2 m ρ) c).arrAt 2 cfg1.N :=
  W3_arr m ρ c 2

/-- The first launch's result array is touched by nothing after that launch: at the last boundary it still holds
    what the first launch's write-backs leave. -/
theorem W3_v0 (c : Dev nD) : W3 m ρ c (Proc.devRef .tc main_v0) = (dat0 (V0 m ρ) c).arrAt 2 cfg0.N :=
  calc W3 m ρ c (Proc.devRef .tc main_v0)
    _ = W2 m ρ c (Proc.devRef .tc main_v0) := W3_of_ne m ρ c main_v0 (by decide)
    _ = W1 m ρ c (Proc.devRef .tc main_v0) := StableHlo.after_of_forall_not_mem (b := Proc.devRef .tc main_v0) _ _ (List.forall_iff_forall_mem.mp (by
          simp only [hostOps1, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = (dat0 (V0 m ρ) c).arrAt 2 cfg0.N := W1_arr m ρ c 2

end Cert.KernelIdeal.EdgeConv

end
-- ==== Proof.EdgeFeat.lean ====
/-
  The first launch: every edge's feature row against the weight matrix. Over the extended reals the body's
  product of an [8000,128] block of the edge features with the transposed [128,128] weights, into a zero
  accumulator, is at row r and column o the sum over k of Y[r,k] · W[o,k] (the two narrowings of float format are
  the identity there). Grid point t holds rows 8000·t … 8000·t + 7999 of the edge features and the whole of the
  weights and writes back the same rows of the result, so the 80 blocks tile the result array, which ends holding
  `edgeFeat Y W` whole.
-/
import proofs.«120976_j63170378989709_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.EdgeConv

open Cert.KernelIdeal Cert.KernelIdeal.Gen
open Idealize.ShloMosaic Idealize.ShloMosaic.TcCoe Idealize.SL.Sem
open Idealize.ShloMosaic.ValueIdx
open Idealize.ShloMosaic.Pipeline (Dat)

/-- The transformed edge features: entry (e, o) is the sum over k of Y[e,k] · W[o,k]. -/
def edgeFeat (Y : FVec Ideal S640000x128 .f32) (W : FVec Ideal S128x128 .f32) : FVec Ideal S640000x128 .f32 :=
  fun i => ∑ k : Fin 128, Y (ix2 (n0 := 640000) (n1 := 128) (i 0) k) * W (ix2 (n0 := 128) (n1 := 128) (i 1) k)

theorem hz : (![0, 0] : Fin 2 → Nat) = fun _ => 0 := funext fun a => by fin_cases a <;> rfl

local notation "D0" => dot_S8000x128_S128x128_S8000x128_1_0_0_1_n_n

/-- Where the product reads its left operand: the output's row, the contraction position's column. -/
theorem lhs_row (i : S8000x128.Idx) (q : (D0).contr.Idx) : ((D0).lhsIdx i q 0).val = (i 0).val := by
  unfold DotDims.lhsIdx
  rw [dif_neg (show ¬(0 : Fin S8000x128.rank) ∈ (D0).lhsBatch by decide), dif_pos (show (0 : Fin S8000x128.rank) ∈ (D0).lhsNonContracting by decide)]
  rfl
theorem lhs_col (i : S8000x128.Idx) (q : (D0).contr.Idx) : ((D0).lhsIdx i q 1).val = (q ⟨0, by decide⟩).val :=
  (D0).lhsIdx_val_of_single rfl i q
/-- Where it reads its right operand (the transposed weights): the contraction position's row, the output's column. -/
theorem rhs_row (i : S8000x128.Idx) (q : (D0).contr.Idx) : ((D0).rhsIdx i q 0).val = (q ⟨0, by decide⟩).val :=
  (D0).rhsIdx_val_of_single rfl i q
theorem rhs_col (i : S8000x128.Idx) (q : (D0).contr.Idx) : ((D0).rhsIdx i q 1).val = (i 1).val := by
  unfold DotDims.rhsIdx
  rw [dif_neg (show ¬(1 : Fin S128x128.rank) ∈ (D0).rhsBatch by decide), dif_pos (show (1 : Fin S128x128.rank) ∈ (D0).rhsNonContracting by decide)]
  rfl

/-- The body's stored value at (r, o): the sum over k of the edge block's [r,k] times the weights' [o,k]. -/
theorem pay_apply (x0 : Vec Ideal S8000x128 .f32) (x1 : Vec Ideal S128x128 .f32) (p : Fin 8000) (q : Fin 128) :
    k0_pay1 (F := Ideal) x0 x1 (ix2 p q) = ∑ k : Fin 128, x0 (ix2 p k) * x1 (ix2 q k) := by
  unfold k0_pay1
  show FloatOps.matmul dot_S8000x128_S128x128_S8000x128_1_0_0_1_n_n none _ _ (constant S8000x128 .f32 0x00000000#32) (ix2 p q) = _
  rw [Ideal.matmul_constant_zero_apply, ← Equiv.sum_comp (contrEquiv1 dot_S8000x128_S128x128_S8000x128_1_0_0_1_n_n 128 rfl rfl).symm]
  refine Finset.sum_congr rfl fun k _ => ?_
  have hk := contrEquiv1_symm_val dot_S8000x128_S128x128_S8000x128_1_0_0_1_n_n 128 rfl rfl k
  have el : dot_S8000x128_S128x128_S8000x128_1_0_0_1_n_n.lhsIdx (ix2 p q) ((contrEquiv1 dot_S8000x128_S128x128_S8000x128_1_0_0_1_n_n 128 rfl rfl).symm k) = ix2 p k :=
    funext fun a => Fin.ext (by
      match a with
      | ⟨0, _⟩ => exact lhs_row _ _
      | ⟨1, _⟩ => exact (lhs_col _ _).trans hk)
  rw [el]
  refine congrArg (x0 (ix2 p k) * ·) ?_
  refine transpose_apply [1, 0] _ transposes_S128x128_p1_0_S128x128 _ (ix2 q k) (fun b => ?_)
  match b with
  | ⟨0, _⟩ => exact ((rhs_row (ix2 p q) _).trans hk).symm
  | ⟨1, _⟩ => exact (rhs_col (ix2 p q) _).symm

/-! ## From the 80 blocks to the whole array -/

variable (V : (c : Dev nD) → (b : Ref sig .tc) → Buf (Elt Ideal) ((c : Thread nD τ).loc b))

/-- The index maps over the grid: point t takes block row t of the edge features and of the result, and the one
    block of the weights. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The edge-feature block at point t is rows 8000·t … 8000·t + 7999 of the array. -/
theorem read_edges (c : Dev nD) (t : Fin cfg0.N) (x : S8000x128.Idx) (i : S640000x128.Idx)
    (h0 : (i 0).val = t.val * 8000 + (x 0).val) (h1 : (i 1).val = (x 1).val) :
    (iblk0 V c 0 t : Vec Ideal S8000x128 .f32) x = (V c main_arg1 : S640000x128.Idx → Elt Ideal .f32) i := by
  obtain ⟨e0, e1, -⟩ := idx_facts0 t
  unfold iblk0
  rw [View.read_apply]
  show V c main_arg1 _ = V c main_arg1 _
  congr 1
  funext a; apply Fin.ext
  match a with
  | ⟨0, _⟩ => show win0_0.index t 0 * 8000 + 1 * (x 0).val = (i 0).val; rw [e0, h0]; omega
  | ⟨1, _⟩ => show win0_0.index t 1 * 128 + 1 * (x 1).val = (i 1).val; rw [e1, h1]; omega

/-- The weights' block at every point is the whole weight matrix. -/
theorem read_weights (c : Dev nD) (t : Fin cfg0.N) (x i : S128x128.Idx)
    (h0 : (i 0).val = (x 0).val) (h1 : (i 1).val = (x 1).val) :
    (iblk0 V c 1 t : Vec Ideal S128x128 .f32) x = (V c main_arg2 : S128x128.Idx → Elt Ideal .f32) i := by
  obtain ⟨-, -, e2, e3, -⟩ := idx_facts0 t
  unfold iblk0
  rw [View.read_apply]
  show V c main_arg2 _ = V c main_arg2 _
  congr 1
  funext a; apply Fin.ext
  match a with
  | ⟨0, _⟩ => show win0_1.index t 0 * 128 + 1 * (x 0).val = (i 0).val; rw [e2, h0]; omega
  | ⟨1, _⟩ => show win0_1.index t 1 * 128 + 1 * (x 1).val = (i 1).val; rw [e3, h1]; omega

/-- What point t writes back is block t of `edgeFeat` of the two arrays as the launch finds them. -/
theorem flushed_edges (c : Dev nD) (t : Fin cfg0.N) :
    (dat0 V c).flushed 2 t = ((cfg0.win 2).blk t).view.read (Elt Ideal) (edgeFeat (V c main_arg1) (V c main_arg2)) := by
  show (cfg0.win 2).cut (grid0.coords t) ((dat0 V c).after 2 t) = _
  rw [after0_2]
  unfold out0_2
  rw [View.canon_unit_zero hz]
  simp only [View.ld_unit_zero (S := S8000x128) hz, View.ld_unit_zero (S := S128x128) hz]
  obtain ⟨-, -, -, -, e4, e5⟩ := idx_facts0 t
  funext j
  obtain ⟨p, q, rfl⟩ : ∃ (p : Fin 8000) (q : Fin 128), j = ix2 p q := ⟨j 0, j 1, eq_ix2 j⟩
  show k0_pay1 (iblk0 V c 0 t) (iblk0 V c 1 t) (ix2 p q) = edgeFeat (V c main_arg1) (V c main_arg2) (((cfg0.win 2).blk t).view.emb (ix2 p q))
  refine (pay_apply _ _ p q).trans ?_
  unfold edgeFeat
  refine Finset.sum_congr rfl fun k _ => ?_
  refine congrArg₂ (· * ·) (read_edges V c t (ix2 p k) _ ?_ rfl) (read_weights V c t (ix2 q k) _ ?_ rfl)
  · show win0_2.index t 0 * 8000 + 1 * p.val = t.val * 8000 + p.val; rw [e4]; omega
  · show win0_2.index t 1 * 128 + 1 * q.val = q.val; rw [e5]; omega

/-- An index of the result array is in point t's block iff each coordinate is in the block's range on its axis. -/
theorem mem_blk_edges (t : Fin cfg0.N) (i : S640000x128.Idx) :
    i ∈ ((cfg0.win 2).blk t).view.set ↔ ∀ a : Fin 2, win0_2.index t a * S8000x128.size a ≤ (i a).val ∧ (i a).val < win0_2.index t a * S8000x128.size a + S8000x128.size a := by
  show i ∈ ((View.whole main_v0).slice (win0_2.rect t)).set ↔ _
  rw [View.set_slice_whole, Rect.mem_set_unit]
  exact Iff.rfl

/-- Row e of the result lies in the block of point e / 8000. -/
theorem cover_edges (i : S640000x128.Idx) : ∃ t : Fin cfg0.N, (cfg0.win 2).flush t = true ∧ i ∈ ((cfg0.win 2).blk t).view.set := by
  have hi0 : (i 0).val < 640000 := (i 0).isLt
  have hi1 : (i 1).val < 128 := (i 1).isLt
  have hN : cfg0.N = 80 := N_0
  obtain ⟨t, ht⟩ : ∃ t : Fin cfg0.N, t.val = (i 0).val / 8000 := ⟨⟨(i 0).val / 8000, by rw [hN]; omega⟩, rfl⟩
  obtain ⟨-, -, -, -, e4, e5⟩ := idx_facts0 t
  refine ⟨t, flush0_2 t, ?_⟩
  rw [mem_blk_edges]
  intro a
  match a with
  | ⟨0, _⟩ => show win0_2.index t 0 * 8000 ≤ (i 0).val ∧ (i 0).val < win0_2.index t 0 * 8000 + 8000; rw [e4, ht]; omega
  | ⟨1, _⟩ => show win0_2.index t 1 * 128 ≤ (i 1).val ∧ (i 1).val < win0_2.index t 1 * 128 + 128; rw [e5]; omega

/-- After the first launch the result array holds `edgeFeat` of the edge features and the weights, whole. -/
theorem edges_final (c : Dev nD) : (dat0 V c).arrAt 2 cfg0.N = edgeFeat (V c main_arg1) (V c main_arg2) :=
  (dat0 V c).arrAt_eq_of_cover 2 _ (fun t _ => flushed_edges V c t) cover_edges

end Cert.KernelIdeal.EdgeConv

end
-- ==== Proof.NodeUpdate.lean ====
/-
  The second launch: the node update. Entry by entry the body adds the aggregated edge features to the node
  features and takes the maximum with zero. Grid point t holds rows 1000·t … 1000·t + 999 of the two operands and
  writes back the same rows of the result, so the 10 blocks tile the result array, which ends holding
  `nodeUpdate X A` whole.
-/
import proofs.«120976_j63170378989709_1_alg».proof.Proof.Gen.KernelIdeal.Frame
import Idealize.ShloMosaic.Lib.Pipeline.Value
import Idealize.ShloMosaic.Lib.ValueIdx

set_option maxRecDepth 16384

noncomputable section

namespace Cert.KernelIdeal.EdgeConv

open Cert.KernelIdeal Cert.KernelIdeal.Gen
open Idealize.ShloMosaic Idealize.ShloMosaic.TcCoe Idealize.SL.Sem
open Idealize.ShloMosaic.ValueIdx
open Idealize.ShloMosaic.Pipeline (Dat)

variable {F : FTy → Type} [FloatOps F]

/-- The updated node features: entry by entry, the maximum of X + A and zero. -/
def nodeUpdate (X A : FVec F S10000x128 .f32) : FVec F S10000x128 .f32 :=
  fun i => FloatOps.maximumf (FloatOps.addf (X i) (A i)) (FloatOps.ofBits .f32 0x00000000#32)

theorem hz1 : (![0, 0] : Fin 2 → Nat) = fun _ => 0 := funext fun a => by fin_cases a <;> rfl

/-- The body's stored value, entry by entry. -/
theorem pay1_apply (x0 x1 : Vec F S1000x128 .f32) (j : S1000x128.Idx) :
    k1_pay1 (F := F) x0 x1 j = FloatOps.maximumf (FloatOps.addf (x0 j) (x1 j)) (FloatOps.ofBits .f32 0x00000000#32) := by
  unfold k1_pay1
  rw [shapeCast_self]
  rfl

variable (V : (c : Dev nD) → (b : Ref sig .tc) → Buf (Elt F) ((c : Thread nD τ).loc b))

/-- The index maps over the grid: point t takes block row t of each operand and of the result. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- The node-feature block at point t is rows 1000·t … 1000·t + 999 of the array. -/
theorem read_nodes (c : Dev nD) (t : Fin cfg1.N) (x : S1000x128.Idx) (i : S10000x128.Idx)
    (h0 : (i 0).val = t.val * 1000 + (x 0).val) (h1 : (i 1).val = (x 1).val) :
    (iblk1 V c 0 t : Vec F S1000x128 .f32) x = (V c main_arg0 : S10000x128.Idx → Elt F .f32) i := by
  obtain ⟨e0, e1, -⟩ := idx_facts1 t
  unfold iblk1
  rw [View.read_apply]
  show V c main_arg0 _ = V c main_arg0 _
  congr 1
  funext a; apply Fin.ext
  match a with
  | ⟨0, _⟩ => show win1_0.index t 0 * 1000 + 1 * (x 0).val = (i 0).val; rw [e0, h0]; omega
  | ⟨1, _⟩ => show win1_0.index t 1 * 128 + 1 * (x 1).val = (i 1).val; rw [e1, h1]; omega

/-- The aggregate's block at point t is the same rows of the aggregate array. -/
theorem read_agg (c : Dev nD) (t : Fin cfg1.N) (x : S1000x128.Idx) (i : S10000x128.Idx)
    (h0 : (i 0).val = t.val * 1000 + (x 0).val) (h1 : (i 1).val = (x 1).val) :
    (iblk1 V c 1 t : Vec F S1000x128 .f32) x = (V c main_v5 : S10000x128.Idx → Elt F .f32) i := by
  obtain ⟨-, -, e2, e3, -⟩ := idx_facts1 t
  unfold iblk1
  rw [View.read_apply]
  show V c main_v5 _ = V c main_v5 _
  congr 1
  funext a; apply Fin.ext
  match a with
  | ⟨0, _⟩ => show win1_1.index t 0 * 1000 + 1 * (x 0).val = (i 0).val; rw [e2, h0]; omega
  | ⟨1, _⟩ => show win1_1.index t 1 * 128 + 1 * (x 1).val = (i 1).val; rw [e3, h1]; omega

/-- What point t writes back is block t of `nodeUpdate` of the two arrays as the launch finds them. -/
theorem flushed_nodes (c : Dev nD) (t : Fin cfg1.N) :
    (dat1 V c).flushed 2 t = ((cfg1.win 2).blk t).view.read (Elt F) (nodeUpdate (V c main_arg0) (V c main_v5)) := by
  show (cfg1.win 2).cut (grid1.coords t) ((dat1 V c).after 2 t) = _
  rw [after1_2]
  unfold out1_2
  rw [View.canon_unit_zero hz1]
  simp only [View.ld_unit_zero (S := S1000x128) hz1]
  obtain ⟨-, -, -, -, e4, e5⟩ := idx_facts1 t
  funext j
  show k1_pay1 (iblk1 V c 0 t) (iblk1 V c 1 t) j = nodeUpdate (V c main_arg0) (V c main_v5) (((cfg1.win 2).blk t).view.emb j)
  refine (pay1_apply _ _ j).trans ?_
  unfold nodeUpdate
  have hj0 : (j 0).val < 1000 := (j 0).isLt
  have hj1 : (j 1).val < 128 := (j 1).isLt
  rw [read_nodes V c t j (((cfg1.win 2).blk t).view.emb j) ?_ ?_, read_agg V c t j (((cfg1.win 2).blk t).view.emb j) ?_ ?_]
  · show win1_2.index t 0 * 1000 + 1 * (j 0).val = t.val * 1000 + (j 0).val; rw [e4]; omega
  · show win1_2.index t 1 * 128 + 1 * (j 1).val = (j 1).val; rw [e5]; omega
  · show win1_2.index t 0 * 1000 + 1 * (j 0).val = t.val * 1000 + (j 0).val; rw [e4]; omega
  · show win1_2.index t 1 * 128 + 1 * (j 1).val = (j 1).val; rw [e5]; omega

/-- An index of the result array is in point t's block iff each coordinate is in the block's range on its axis. -/
theorem mem_blk_nodes (t : Fin cfg1.N) (i : S10000x128.Idx) :
    i ∈ ((cfg1.win 2).blk t).view.set ↔ ∀ a : Fin 2, win1_2.index t a * S1000x128.size a ≤ (i a).val ∧ (i a).val < win1_2.index t a * S1000x128.size a + S1000x128.size a := by
  show i ∈ ((View.whole main_v6).slice (win1_2.rect t)).set ↔ _
  rw [View.set_slice_whole, Rect.mem_set_unit]
  exact Iff.rfl

/-- Row n of the result lies in the block of point n / 1000. -/
theorem cover_nodes (i : S10000x128.Idx) : ∃ t : Fin cfg1.N, (cfg1.win 2).flush t = true ∧ i ∈ ((cfg1.win 2).blk t).view.set := by
  have hi0 : (i 0).val < 10000 := (i 0).isLt
  have hi1 : (i 1).val < 128 := (i 1).isLt
  have hN : cfg1.N = 10 := N_1
  obtain ⟨t, ht⟩ : ∃ t : Fin cfg1.N, t.val = (i 0).val / 1000 := ⟨⟨(i 0).val / 1000, by rw [hN]; omega⟩, rfl⟩
  obtain ⟨-, -, -, -, e4, e5⟩ := idx_facts1 t
  refine ⟨t, flush1_2 t, ?_⟩
  rw [mem_blk_nodes]
  intro a
  match a with
  | ⟨0, _⟩ => show win1_2.index t 0 * 1000 ≤ (i 0).val ∧ (i 0).val < win1_2.index t 0 * 1000 + 1000; rw [e4, ht]; omega
  | ⟨1, _⟩ => show win1_2.index t 1 * 128 ≤ (i 1).val ∧ (i 1).val < win1_2.index t 1 * 128 + 128; rw [e5]; omega

/-- After the second launch the result array holds `nodeUpdate` of the node features and the aggregate, whole. -/
theorem nodes_final (c : Dev nD) : (dat1 V c).arrAt 2 cfg1.N = nodeUpdate (V c main_arg0) (V c main_v5) :=
  (dat1 V c).arrAt_eq_of_cover 2 _ (fun t _ => flushed_nodes V c t) cover_nodes

end Cert.KernelIdeal.EdgeConv

end
-- ==== Proof.KernelValue.lean ====
/-
  The idealized kernel's two results as functions of its four arguments. The first launch leaves
  `edgeFeat Y W` (every edge's feature row against the weights). The host stretch between the launches takes the
  first column of the edge list as the source node of each edge and scatter-adds the transformed edge rows into a zero
  [10000,128] array: the aggregate. The second launch leaves `nodeUpdate X aggregate`. Nothing after the first
  launch writes its result, so both are read off the last boundary of the run.
-/
import proofs.«120976_j63170378989709_1_alg».proof.Proof.RunOutputs
import proofs.«120976_j63170378989709_1_alg».proof.Proof.EdgeFeat
import proofs.«120976_j63170378989709_1_alg».proof.Proof.NodeUpdate
import Idealize.ShloMosaic.Lib.StableHlo.Run

set_option maxRecDepth 16384

noncomputable section

namespace Cert.KernelIdeal.EdgeConv

open Cert.KernelIdeal Cert.KernelIdeal.Gen
open Idealize.ShloMosaic Idealize.ShloMosaic.TcCoe Idealize.SL.Sem Idealize.ShloMosaic.StableHlo
open Idealize.ShloMosaic.Pipeline (Dat)

/-- The aggregate: the rows of `E` scatter-added into a zero [10000,128] array, row e into the row named by the first
    column of the edge list at e. -/
def aggregate (E : (⟨S640000x128, .f32⟩ : BufTy).Contents (Elt Ideal)) (idx : (⟨S640000x2, .i32⟩ : BufTy).Contents (Elt Ideal)) :
    (⟨S10000x128, .f32⟩ : BufTy).Contents (Elt Ideal) :=
  Host.scatterAdd (F := Ideal) scatter_S10000x128_S640000x1_S640000x128_1_0_0_1
    (broadcastInDim S10000x128 ![] bcast_S_S10000x128 (constant (F := Ideal) S_ .f32 0x00000000#32))
    (broadcastInDim S640000x1 ![0] bcast_S640000_S640000x1_0 (shapeCast _ (extractStridedSlice S640000x1 ![0, 0] idx slices_S640000x2_S640000x1_0_0) shapeCasts_S640000x1_S640000))
    E

variable (m : (ℓ : Loc nD τ sig) → Buf (Elt Ideal) ℓ) (ρ : Dev nD → PrngReg)

/-- After the first launch its result array holds the transformed edge features of the launch memory's arguments. -/
theorem W1_v0 (c : Dev nD) : W1 m ρ c (Proc.devRef .tc main_v0)
    = edgeFeat (m ((c : Thread nD τ).loc main_arg1)) (m ((c : Thread nD τ).loc main_arg2)) :=
  (W1_arr m ρ c 2).trans (edges_final (V0 m ρ) c)

/-- The edge list is as launched when the host stretch reads it. -/
theorem W1_arg3 (c : Dev nD) : W1 m ρ c (Proc.devRef .tc main_arg3) = m ((c : Thread nD τ).loc main_arg3) :=
  W1_of_ne m ρ c main_arg3 (by decide)

/-- The node features are as launched when the host stretch starts. -/
theorem W1_arg0 (c : Dev nD) : W1 m ρ c (Proc.devRef .tc main_arg0) = m ((c : Thread nD τ).loc main_arg0) :=
  W1_of_ne m ρ c main_arg0 (by decide)

/-- The host stretch leaves the aggregate of what the first launch left. -/
theorem V2_v5 (c : Dev nD) : V2 m ρ c main_v5
    = aggregate (edgeFeat (m ((c : Thread nD τ).loc main_arg1)) (m ((c : Thread nD τ).loc main_arg2))) (m ((c : Thread nD τ).loc main_arg3)) := by
  rw [← W1_v0 m ρ c, ← W1_arg3 m ρ c]
  show StableHlo.after hostOps1 (W1 m ρ c) (Proc.devRef .tc main_v5) = _
  after_results
  rfl

/-- The host stretch does not write the node features. -/
theorem V2_arg0 (c : Dev nD) : V2 m ρ c main_arg0 = m ((c : Thread nD τ).loc main_arg0) := by
  rw [← W1_arg0 m ρ c]
  show StableHlo.after hostOps1 (W1 m ρ c) (Proc.devRef .tc main_arg0) = _
  after_results <;> rfl

/-- THE KERNEL'S RUN, READ: every weakly fair execution terminates with the updated node features and the transformed
    edge features in the two result arrays, the arguments unchanged. -/
theorem run : θ_run defs (onTc (τ := τ) (main (F := Ideal))) ⟨m, fun _ => 0, ρ⟩ (fun r => ∀ c : Dev nD,
      r.2.mem ((c.tc : Thread nD τ).loc main_v6)
        = nodeUpdate (F := Ideal) (m ((c : Thread nD τ).loc main_arg0))
            (aggregate (edgeFeat (m ((c : Thread nD τ).loc main_arg1)) (m ((c : Thread nD τ).loc main_arg2))) (m ((c : Thread nD τ).loc main_arg3)))
      ∧ r.2.mem ((c.tc : Thread nD τ).loc main_v0) = edgeFeat (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => by
    obtain ⟨h6, h0, ha⟩ := h c
    refine ⟨?_, ?_, ha⟩
    · rw [h6, W3_v6, nodes_final (V2 m ρ) c, V2_arg0, V2_v5]
    · rw [h0, W3_v0]
      exact edges_final (V0 m ρ) c)
    (run_boundary m ρ)

end Cert.KernelIdeal.EdgeConv

end
-- ==== Proof.Bridge.lean ====
/-
  The reference computes the same two functions. Its `dot_general` contracts the second axis of the edge features
  with the second axis of the weights: entry (e, o) is the sum over k of Y[e,k] · W[o,k], which is `edgeFeat`. Its
  slice, reshape, broadcast and scatter-add are the kernel's host stretch operation for operation, so once the scattered
  rows agree the aggregates agree; and its add followed by the maximum with a zero array is `nodeUpdate` entry by
  entry. No law of the extended reals beyond reading both sums over the same index set in the same order is used.
-/
import proofs.«120976_j63170378989709_1_alg».proof.Proof.KernelValue
import proofs.«120976_j63170378989709_1_alg».proof.Proof.Gen.ReferenceIdeal.Run
import proofs.«120976_j63170378989709_1_alg».proof.Proof.Gen.ReferenceIdeal.Read

noncomputable section

namespace Cert.RefBridge

open Idealize.ShloMosaic Idealize.ShloMosaic.TcCoe Idealize.SL.Sem
open Idealize.ShloMosaic.ValueIdx
open Cert.ReferenceIdeal Cert.ReferenceIdeal.Gen Cert.ReferenceIdeal.Read
open Cert.KernelIdeal.EdgeConv (edgeFeat nodeUpdate aggregate)

/-- The reference's matrix product is the transformed edge features. -/
theorem ref_edges (Y : (⟨S640000x128, .f32⟩ : BufTy).Contents (Elt Ideal)) (W : (⟨S128x128, .f32⟩ : BufTy).Contents (Elt Ideal)) :
    val_main_v0 (F := Ideal) Y W = edgeFeat Y W := by
  funext i
  rw [val_main_v0_apply]
  unfold edgeFeat
  refine Finset.sum_congr rfl fun k _ => ?_
  have el : lidx_main_v0 i k = ix2 (n0 := 640000) (n1 := 128) (i 0) k :=
    funext fun a => Fin.ext (by match a with | ⟨0, _⟩ => rfl | ⟨1, _⟩ => rfl)
  have er : ridx_main_v0 i k = ix2 (n0 := 128) (n1 := 128) (i 1) k :=
    funext fun a => Fin.ext (by match a with | ⟨0, _⟩ => rfl | ⟨1, _⟩ => rfl)
  rw [el, er]

/-- The reference's scatter-add of its product is the aggregate of the transformed edge features. -/
theorem ref_aggregate (Y : (⟨S640000x128, .f32⟩ : BufTy).Contents (Elt Ideal)) (W : (⟨S128x128, .f32⟩ : BufTy).Contents (Elt Ideal))
    (idx : (⟨S640000x2, .i32⟩ : BufTy).Contents (Elt Ideal)) :
    val_main_v5 (F := Ideal) Y W idx = aggregate (edgeFeat Y W) idx := by
  unfold val_main_v5
  rw [ref_edges]
  rfl

/-- The reference's first result is the updated node features. -/
theorem ref_nodes (X : (⟨S10000x128, .f32⟩ : BufTy).Contents (Elt Ideal)) (Y : (⟨S640000x128, .f32⟩ : BufTy).Contents (Elt Ideal))
    (W : (⟨S128x128, .f32⟩ : BufTy).Contents (Elt Ideal)) (idx : (⟨S640000x2, .i32⟩ : BufTy).Contents (Elt Ideal)) :
    val_main_v7 (F := Ideal) X Y W idx = nodeUpdate (F := Ideal) X (aggregate (edgeFeat Y W) idx) := by
  funext i
  rw [val_main_v7_apply, val_main_v6_apply, val_main_call0_v0_apply, val_main_call0_cst_apply, ref_aggregate]
  rfl

end Cert.RefBridge

end
-- ==== Proof.lean ====
/-
  A graph layer on 10000 nodes and 640000 edges with 128 features each: every edge's feature row is multiplied
  by the transposed weight matrix (Y' = Y · Wᵀ), the transformed rows are summed into the row of each edge's
  source node (the aggregate), and the node features are updated to max(X + aggregate, 0); the results are the
  updated node features and Y'.

  The kernel computes Y' in a first launch over 80 blocks of 8000 edges (a product of narrowed operands into a zero
  accumulator; over the extended reals narrowing is the identity and the product at (e, o) is the sum over k of
  Y[e,k] · W[o,k]), aggregates on the host, and updates the nodes in a second launch over 10 blocks of 1000 nodes. The
  reference computes the same product as one contraction over the second axes, the same aggregation operation for
  operation, and the same add and maximum. The two results agree entry by entry as extended reals, whatever the
  inputs: both sums run over the same 128 terms in the same order, so finiteness of the inputs is never used.

  The three frame claims are the programs' runs with the results dropped; the idealized kernel is the kernel's own
  text read over the extended reals (no rewrite was applied), so there is nothing to preserve.
-/
import proofs.«120976_j63170378989709_1_alg».proof.Defs
import proofs.«120976_j63170378989709_1_alg».proof.Proof.Gen.Kernel
import proofs.«120976_j63170378989709_1_alg».proof.Proof.Gen.Kernel.Frame
import proofs.«120976_j63170378989709_1_alg».proof.Proof.Gen.KernelIdeal
import proofs.«120976_j63170378989709_1_alg».proof.Proof.Gen.KernelIdeal.Frame
import proofs.«120976_j63170378989709_1_alg».proof.Proof.Gen.ReferenceIdeal
import proofs.«120976_j63170378989709_1_alg».proof.Proof.Gen.ReferenceIdeal.Run
import proofs.«120976_j63170378989709_1_alg».proof.Proof.Gen.Pre_finite_inputs
import proofs.«120976_j63170378989709_1_alg».proof.Proof.Bridge
import Idealize.ShloMosaic.Adequacy
import Idealize.ShloMosaic.Init

noncomputable section

namespace Cert.Proof

open Idealize.ShloMosaic Idealize.ShloMosaic.TcCoe Idealize.SL.Sem

/-- The kernel as printed runs to the end without a fault and leaves its arguments as launched. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- No operation of the kernel was rewritten for the reading over the extended reals. -/
theorem preserves : Cert.preserves_Kernel_KernelIdeal := trivial

/-- From memories that agree on the four arguments both programs end with the updated node features
    max(X + aggregate(Y · Wᵀ), 0) and the transformed edge features Y · Wᵀ in their results. -/
theorem algebraic : Cert.algebraic_KernelIdeal_ReferenceIdeal := by
  intro m ρ m' ρ' _ hagree
  refine ⟨_, _, Cert.KernelIdeal.EdgeConv.run m ρ, ?_⟩
  refine (θ_run Cert.ReferenceIdeal.defs _ _).mono (fun _ h c => ?_) (Cert.ReferenceIdeal.Value.run (F := Ideal) m' ρ')
  obtain ⟨h7, h0, ha⟩ := h c
  obtain ⟨e0, e1, e2, e3⟩ := hagree c
  refine ⟨h7.trans ?_, h0.trans ?_, ha⟩
  · rw [e0, e1, e2, e3]
    exact (Cert.ReferenceIdeal.Read.val_main_v7_eq _ _ _ _).trans (Cert.RefBridge.ref_nodes _ _ _ _)
  · rw [e1, e2]
    exact (Cert.ReferenceIdeal.Read.val_main_v0_eq _ _).trans (Cert.RefBridge.ref_edges _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
